-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_arg10 : FVec F S256x128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256x128 .f32) (main_arg9 : FVec F S128 .f32) (main_arg10 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x128 .f32) (main_arg9 : FVec F S128 .f32) (main_arg10 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S50000x256, .f32⟩
  | .hbm, ⟨73, _⟩ => ⟨S800000x1, .i32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S1x128, .f32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x128, .f32⟩
  | .local _ .vmem, ⟨23, _⟩ => ⟨S1x128, .f32⟩
  | .local _ .vmem, ⟨24, _⟩ => ⟨S256x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x256, .f32⟩
  | .hbm, ⟨92, _⟩ => ⟨S_, .f32⟩
  | .hbm, ⟨93, _⟩ => ⟨S50000x256, .f32⟩
  | .hbm, ⟨94, _⟩ => ⟨S800000x1, .i32⟩
  | .hbm, ⟨95, _⟩ => ⟨S50000x256, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibMeanRecip.lean ====
/-
  Mean by a clamped count, two spellings, on the extended reals.

  With `c` any extended real, `max c 1` is at least 1, so it is never zero; division by a value that is not zero is the
  product with its inverse (the extended reals' inverse, which sends both infinities to 0). Hence multiplying by the
  reciprocal `1 / max c 1` and dividing by `max c 1` are one function of `a` and `c`, at the infinities too: no
  finiteness of the sum `a` or of the count `c` is used.
-/
import Idealize.ShloMosaic.PureOps.Ideal
import Idealize.ShloMosaic.PureOps.Ideal.Laws

noncomputable section

namespace Cert.LibMeanRecip

open Idealize.ShloMosaic

/-- The single-precision word of `1.0` denotes the real number 1. -/
theorem ofBits_one_f32 : Ideal.ofBits .f32 0x3F800000#32 = 1 := by
  simp [Ideal.ofBits, Ideal.ieee, -EReal.coe_mul]; norm_num

/-- A value clamped below at 1 is not zero. -/
theorem max_one_ne_zero (c : EReal) : max c 1 ≠ 0 :=
  (lt_of_lt_of_le zero_lt_one (le_max_right c 1)).ne'

/-- `a · (1 / max c 1) = a / max c 1` for all extended reals `a`, `c`. -/
theorem mul_recip_clamped (a c : EReal) : a * Ideal.div 1 (max c 1) = Ideal.div a (max c 1) := by
  have h := max_one_ne_zero c
  rw [Ideal.div, Ideal.div, if_neg h, if_neg h, one_mul]

end Cert.LibMeanRecip

end
-- ==== Proof.KernelHost.lean ====
/-
  The host operations around the three pipelined calls, as functions of the arrays they read.

  From the edge list the program takes the source row and the destination row of node indices (a negative source index
  counts from the end).  The in-degree of a node is the scatter-sum of ones over the destination row; its reciprocal,
  clamped, is `1 / max(degree, 1)`.  The aggregated mean of a feature array is the scatter-sum, over the destination row, of
  the feature rows gathered at the source row, times that reciprocal broadcast over the columns.  Between the pipelined
  calls nothing else is written: the index rows, the reciprocal column and the parameter arrays keep their contents from
  one boundary to the next.
-/
import proofs.«151421_j71897752535696_1_alg».proof.Proof.Gen.KernelIdeal.Frame
import proofs.«151421_j71897752535696_1_alg».proof.Proof.LibMeanRecip
import Idealize.ShloMosaic.Lib.Pipeline.Value
import Idealize.ShloMosaic.Lib.ValueIdx
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

/-! ## The aggregation, as terms -/

/-- The source row of the edge list. -/
def src (e : IVec S2x800000 32) : IVec S800000 32 :=
  shapeCast _ (extractStridedSlice S1x800000 ![0, 0] e slices_S2x800000_S1x800000_0_0) shapeCasts_S1x800000_S800000
/-- The destination row of the edge list. -/
def dst (e : IVec S2x800000 32) : IVec S800000 32 :=
  shapeCast _ (extractStridedSlice S1x800000 ![1, 0] e slices_S2x800000_S1x800000_1_0) shapeCasts_S1x800000_S800000
/-- The source row as a column of start indices, a negative index counted from the end. -/
def srcIdx (e : IVec S2x800000 32) : IVec S800000x1 32 :=
  broadcastInDim S800000x1 ![0] bcast_S800000_S800000x1_0
    (select (cmpi .slt (src e) (broadcastInDim S800000 ![] bcast_S_S800000 (constantI S_ 32 0#32)))
      (addi (src e) (broadcastInDim S800000 ![] bcast_S_S800000 (constantI S_ 32 50000#32))) (src e))
/-- The destination row as a column of scatter indices. -/
def dstIdx (e : IVec S2x800000 32) : IVec S800000x1 32 :=
  broadcastInDim S800000x1 ![0] bcast_S800000_S800000x1_0 (dst e)
/-- The in-degree of every node: ones summed at the destination row. -/
def cnt (e : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32)) (dstIdx e)
    (broadcastInDim S800000 ![] bcast_S_S800000 (constant (F := Ideal) S_ .f32 0x3F800000#32))
/-- The vector of ones over the nodes. -/
def ones : FVec Ideal S50000 .f32 := broadcastInDim S50000 ![] bcast_S_S50000 (constant (F := Ideal) S_ .f32 0x3F800000#32)
/-- The column `1 / max(y, 1)` of a vector `y`. -/
def recipCol (y : FVec Ideal S50000 .f32) : FVec Ideal S50000x1 .f32 :=
  broadcastInDim S50000x1 ![0] bcast_S50000_S50000x1_0 (Host.divf (F := Ideal) ones (maximumf y ones))
/-- Every row of a 128-column array times that row's entry of a column. -/
def scale128 (A : FVec Ideal S50000x128 .f32) (v : FVec Ideal S50000x1 .f32) : FVec Ideal S50000x128 .f32 :=
  mulf A (broadcastInDim S50000x128 ![0, 1] bcast_S50000x1_S50000x128_0_1 v)
/-- Every row of a 256-column array times that row's entry of a column. -/
def scale256 (A : FVec Ideal S50000x256 .f32) (v : FVec Ideal S50000x1 .f32) : FVec Ideal S50000x256 .f32 :=
  mulf A (broadcastInDim S50000x256 ![0, 1] bcast_S50000x1_S50000x256_0_1 v)
/-- The column `1 / max(degree, 1)`. -/
def inv (e : IVec S2x800000 32) : FVec Ideal S50000x1 .f32 := recipCol (cnt e)
/-- Neighbour sums of a 128-column feature array. -/
def agg128 (f : FVec Ideal S50000x128 .f32) (e : IVec S2x800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstIdx e)
    (Host.gather gather_S50000x128_S800000x1_S800000x128_1_0_n_n_0_1_1128 f (srcIdx e))
/-- Neighbour sums of a 256-column feature array. -/
def agg256 (f : FVec Ideal S50000x256 .f32) (e : IVec S2x800000 32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32)) (dstIdx e)
    (Host.gather gather_S50000x256_S800000x1_S800000x256_1_0_n_n_0_1_1256 f (srcIdx e))
/-- Neighbour means of a 128-column feature array: the sums times the reciprocal column. -/
def mean128 (f : FVec Ideal S50000x128 .f32) (e : IVec S2x800000 32) : FVec Ideal S50000x128 .f32 :=
  scale128 (agg128 f e) (inv e)
/-- Neighbour means of a 256-column feature array. -/
def mean256 (f : FVec Ideal S50000x256 .f32) (e : IVec S2x800000 32) : FVec Ideal S50000x256 .f32 :=
  scale256 (agg256 f e) (inv e)

/-! ## The scalings read at a row and a column -/

theorem ones_apply (j : S50000.Idx) : ones j = 1 := by
  unfold ones
  refine (broadcastInDim_apply _ bcast_S_S50000 (constant (F := Ideal) S_ .f32 0x3F800000#32) j (fun a => a.elim0) (fun a => a.elim0)).trans ?_
  exact Cert.LibMeanRecip.ofBits_one_f32

theorem hostDivf_at (a b : FVec Ideal S50000 .f32) (j : S50000.Idx) : Host.divf (F := Ideal) a b j = Ideal.div (a j) (b j) := rfl
theorem maximumf_at (a b : FVec Ideal S50000 .f32) (j : S50000.Idx) : maximumf a b j = max (a j) (b j) := rfl

theorem recipCol_apply (y : FVec Ideal S50000 .f32) (r : Fin 50000) (u : Fin 1) :
    recipCol y (ix2 r u) = Ideal.div 1 (max (y (ix1 r)) 1) := by
  unfold recipCol
  rw [broadcastInDim_apply _ bcast_S50000_S50000x1_0 (Host.divf (F := Ideal) ones (maximumf y ones)) (ix2 r u) (ix1 r)
    (fun a => match a with
      | ⟨0, _⟩ => by show r.val = if (50000 : Nat) = 1 then 0 else r.val; rw [if_neg (by decide)]),
    hostDivf_at, maximumf_at, ones_apply]

theorem scale128_apply (A : FVec Ideal S50000x128 .f32) (v : FVec Ideal S50000x1 .f32) (r : Fin 50000) (k : Fin 128) :
    scale128 A v (ix2 r k) = A (ix2 r k) * v (ix2 r (0 : Fin 1)) := by
  unfold scale128
  rw [mulf_apply, broadcastInDim_apply _ bcast_S50000x1_S50000x128_0_1 v (ix2 r k) (ix2 r (0 : Fin 1))
    (fun a => match a with
      | ⟨0, _⟩ => by show r.val = if (50000 : Nat) = 1 then 0 else r.val; rw [if_neg (by decide)]
      | ⟨1, _⟩ => by show 0 = if (1 : Nat) = 1 then 0 else k.val; rw [if_pos rfl])]

theorem scale256_apply (A : FVec Ideal S50000x256 .f32) (v : FVec Ideal S50000x1 .f32) (r : Fin 50000) (k : Fin 256) :
    scale256 A v (ix2 r k) = A (ix2 r k) * v (ix2 r (0 : Fin 1)) := by
  unfold scale256
  rw [mulf_apply, broadcastInDim_apply _ bcast_S50000x1_S50000x256_0_1 v (ix2 r k) (ix2 r (0 : Fin 1))
    (fun a => match a with
      | ⟨0, _⟩ => by show r.val = if (50000 : Nat) = 1 then 0 else r.val; rw [if_neg (by decide)]
      | ⟨1, _⟩ => by show 0 = if (1 : Nat) = 1 then 0 else k.val; rw [if_pos rfl])]

/-- A mean's entry: the neighbour sum times `1 / max(degree, 1)` of its row. -/
theorem mean128_apply (f : FVec Ideal S50000x128 .f32) (e : IVec S2x800000 32) (r : Fin 50000) (k : Fin 128) :
    mean128 f e (ix2 r k) = agg128 f e (ix2 r k) * Ideal.div 1 (max (cnt e (ix1 r)) 1) := by
  unfold mean128 inv
  rw [scale128_apply, recipCol_apply]

theorem mean256_apply (f : FVec Ideal S50000x256 .f32) (e : IVec S2x800000 32) (r : Fin 50000) (k : Fin 256) :
    mean256 f e (ix2 r k) = agg256 f e (ix2 r k) * Ideal.div 1 (max (cnt e (ix1 r)) 1) := by
  unfold mean256 inv
  rw [scale256_apply, recipCol_apply]

/-! ## The contents at the boundaries -/

variable (m : (ℓ : Loc nD τ sig) → Buf (Elt Ideal) ℓ) (ρ : Dev nD → PrngReg) (c : Dev nD)

/-! ### After the first stretch of host operations -/

theorem w1_v1 : W1 m ρ c (Proc.devRef .tc main_v1) = src (m ((c : Thread nD τ).loc main_arg1)) := by
  show StableHlo.after hostOps0 (W0 m ρ c) (Proc.devRef .tc main_v1) = _
  after_results_simp
  rfl
theorem w1_v3 : W1 m ρ c (Proc.devRef .tc main_v3) = dst (m ((c : Thread nD τ).loc main_arg1)) := by
  show StableHlo.after hostOps0 (W0 m ρ c) (Proc.devRef .tc main_v3) = _
  after_results_simp
  rfl
theorem w1_v12 : W1 m ρ c (Proc.devRef .tc main_v12) = inv (m ((c : Thread nD τ).loc main_arg1)) := by
  show StableHlo.after hostOps0 (W0 m ρ c) (Proc.devRef .tc main_v12) = _
  after_results_simp
  rfl
theorem w1_v24 : W1 m ρ c (Proc.devRef .tc main_v24) = mean128 (m ((c : Thread nD τ).loc main_arg0)) (m ((c : Thread nD τ).loc main_arg1)) := by
  show StableHlo.after hostOps0 (W0 m ρ c) (Proc.devRef .tc main_v24) = _
  after_results_simp
  rfl
theorem w1_v25 : W1 m ρ c (Proc.devRef .tc main_v25) = shapeCast S1x256 (m ((c : Thread nD τ).loc main_arg3)) shapeCasts_S256_S1x256 := by
  show StableHlo.after hostOps0 (W0 m ρ c) (Proc.devRef .tc main_v25) = _
  after_results_simp
  rfl
theorem w1_arg0 : W1 m ρ c (Proc.devRef .tc main_arg0) = (m ((c : Thread nD τ).loc main_arg0)) := by
  show StableHlo.after hostOps0 (W0 m ρ c) (Proc.devRef .tc main_arg0) = _
  after_results_simp
theorem w1_arg2 : W1 m ρ c (Proc.devRef .tc main_arg2) = (m ((c : Thread nD τ).loc main_arg2)) := by
  show StableHlo.after hostOps0 (W0 m ρ c) (Proc.devRef .tc main_arg2) = _
  after_results_simp
theorem w1_arg4 : W1 m ρ c (Proc.devRef .tc main_arg4) = (m ((c : Thread nD τ).loc main_arg4)) := by
  show StableHlo.after hostOps0 (W0 m ρ c) (Proc.devRef .tc main_arg4) = _
  after_results_simp
theorem w1_arg5 : W1 m ρ c (Proc.devRef .tc main_arg5) = (m ((c : Thread nD τ).loc main_arg5)) := by
  show StableHlo.after hostOps0 (W0 m ρ c) (Proc.devRef .tc main_arg5) = _
  after_results_simp
theorem w1_arg6 : W1 m ρ c (Proc.devRef .tc main_arg6) = (m ((c : Thread nD τ).loc main_arg6)) := by
  show StableHlo.after hostOps0 (W0 m ρ c) (Proc.devRef .tc main_arg6) = _
  after_results_simp
theorem w1_arg7 : W1 m ρ c (Proc.devRef .tc main_arg7) = (m ((c : Thread nD τ).loc main_arg7)) := by
  show StableHlo.after hostOps0 (W0 m ρ c) (Proc.devRef .tc main_arg7) = _
  after_results_simp
theorem w1_arg8 : W1 m ρ c (Proc.devRef .tc main_arg8) = (m ((c : Thread nD τ).loc main_arg8)) := by
  show StableHlo.after hostOps0 (W0 m ρ c) (Proc.devRef .tc main_arg8) = _
  after_results_simp
theorem w1_arg9 : W1 m ρ c (Proc.devRef .tc main_arg9) = (m ((c : Thread nD τ).loc main_arg9)) := by
  show StableHlo.after hostOps0 (W0 m ρ c) (Proc.devRef .tc main_arg9) = _
  after_results_simp
theorem w1_arg10 : W1 m ρ c (Proc.devRef .tc main_arg10) = (m ((c : Thread nD τ).loc main_arg10)) := by
  show StableHlo.after hostOps0 (W0 m ρ c) (Proc.devRef .tc main_arg10) = _
  after_results_simp

end Cert.KernelIdeal.Glue

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.LibLayerEntry.lean ====
/-
  One layer of a mean-aggregating graph convolution, entry by entry, on the extended reals.

  Row `r` of a layer's output depends on row `r` of the aggregated features `a` and of the node features `x`: the entry at
  column `o` is the product of row `r` of `a` with column `o` of the neighbour weights, plus the product of row `r` of `x`
  with column `o` of the root weights, plus the bias at `o`.  The three terms are added in one of two orders; addition of
  extended reals is commutative and associative, so the two orders agree, at the infinities too.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«151421_j71897752535696_1_alg».proof.Proof.LibPlainMatmul

noncomputable section

open scoped BigOperators

namespace Cert.Sage

open Idealize.ShloMosaic Idealize.ShloMosaic.ValueIdx

/-- The entry `(r, o)` of a layer before its activation: the two products first, then the bias. -/
def pre {N D H : ℕ} (a x : (⟨2, ![N, D]⟩ : Shape).Idx → EReal) (wl wr : (⟨2, ![D, H]⟩ : Shape).Idx → EReal)
    (b : (⟨2, ![1, H]⟩ : Shape).Idx → EReal) (r : Fin N) (o : Fin H) : EReal :=
  ((∑ k : Fin D, a (ix2 r k) * wl (ix2 k o)) + (∑ k : Fin D, x (ix2 r k) * wr (ix2 k o))) + b (ix2 (0 : Fin 1) o)

/-- The same three terms with the bias added before the second product. -/
theorem pre_eq_bias_first {N D H : ℕ} (a x : (⟨2, ![N, D]⟩ : Shape).Idx → EReal) (wl wr : (⟨2, ![D, H]⟩ : Shape).Idx → EReal)
    (b : (⟨2, ![1, H]⟩ : Shape).Idx → EReal) (r : Fin N) (o : Fin H) :
    ((∑ k : Fin D, a (ix2 r k) * wl (ix2 k o)) + b (ix2 (0 : Fin 1) o)) + (∑ k : Fin D, x (ix2 r k) * wr (ix2 k o))
      = pre a x wl wr b r o := by
  unfold pre; exact add_right_comm _ _ _

/-- Two matrix products into zero accumulators, added, plus a row broadcast over the rows, read at `(p, q)`:
    the sum over `k` of the first pair, plus the sum over `k` of the second pair, plus the row's entry at `q`. -/
theorem products_bias_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (A B : FVec Ideal ⟨2, ![M, K]⟩ φ₁) (Wl Wr : FVec Ideal ⟨2, ![K, N]⟩ φ₂) (bias : FVec Ideal ⟨2, ![1, N]⟩ .f32)
    (hb : (⟨2, ![1, N]⟩ : Shape).Broadcasts ⟨2, ![M, N]⟩) (p : Fin M) (q : Fin N) :
    addf (addf (matmul d none A Wl (constant ⟨2, ![M, N]⟩ .f32 0x00000000#32))
               (matmul d none B Wr (constant ⟨2, ![M, N]⟩ .f32 0x00000000#32)))
         (broadcastTo ⟨2, ![M, N]⟩ bias hb) (ix2 p q)
      = ((∑ k : Fin K, A (ix2 p k) * Wl (ix2 k q)) + (∑ k : Fin K, B (ix2 p k) * Wr (ix2 k q))) + bias (ix2 (0 : Fin 1) q) := by
  show (matmul d none A Wl (constant ⟨2, ![M, N]⟩ .f32 0x00000000#32) (ix2 p q)
        + matmul d none B Wr (constant ⟨2, ![M, N]⟩ .f32 0x00000000#32) (ix2 p q))
       + broadcastTo ⟨2, ![M, N]⟩ bias hb (ix2 p q) = _
  rw [Cert.Lib.PlainMatmul.matmul_zero_apply d hr hs l0 l1 r0 r1 none A Wl p q,
    Cert.Lib.PlainMatmul.matmul_zero_apply d hr hs l0 l1 r0 r1 none B Wr p q,
    broadcastTo_1b_ab_apply bias hb p q]

end Cert.Sage

end
-- ==== Proof.Region0.lean ====
/-
  What pipelined call 0 leaves in its output array, as one function of the arrays it reads.

  The call walks the node rows in 25 blocks of 2000.  At block `t` it reads rows `2000 t … 2000 t + 1999` of the aggregated
  features and of the node features, the two whole weight matrices and the bias row, and writes rows
  `2000 t … 2000 t + 1999` of the output.  Row `p` of the block it writes is the layer's row `2000 t + p`: a row of the
  output depends on the same row of the two feature arrays only, so cutting the rows into blocks changes nothing, and the
  25 blocks tile the 50000 rows.  The matrix products are taken in a narrower float format; on the extended reals a change
  of format is the identity.
-/
import proofs.«151421_j71897752535696_1_alg».proof.Proof.Gen.KernelIdeal.Frame
import proofs.«151421_j71897752535696_1_alg».proof.Proof.LibLayerEntry
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product's dimension record: which coordinate of each factor reads which index -/

theorem d_l0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem d_l1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem d_r0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem d_r1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-! ## The layer, and one block's arithmetic read at a row and a column -/

/-- The output array of the layer: entry `(r, o)` from row `r` of the aggregated features `a` and of the node features `x`. -/
def G (a x : S50000x128.Idx → EReal) (wl wr : S128x256.Idx → EReal) (b : S1x256.Idx → EReal) : S50000x256.Idx → EReal :=
  fun i => (fun (r : Fin 50000) (o : Fin 256) => max (Cert.Sage.pre a x wl wr b r o) (Ideal.ofBits .f32 0x00000000#32)) (i 0) (i 1)

theorem G_apply (a x : S50000x128.Idx → EReal) (wl wr : S128x256.Idx → EReal) (b : S1x256.Idx → EReal) (r : Fin 50000) (o : Fin 256) :
    G a x wl wr b (ix2 r o) = max (Cert.Sage.pre a x wl wr b r o) (Ideal.ofBits .f32 0x00000000#32) := rfl

/-- The value the body stores, at row `p` and column `q` of the block, from the five blocks it loaded. -/
theorem pay_apply (v0 v3 : Vec Ideal S2000x128 .f32) (v5 v7 : Vec Ideal S128x256 .f32) (v12 : Vec Ideal S1x256 .f32) (p : Fin 2000) (q : Fin 256) :
    k0_pay1 v0 v3 v5 v7 v12 (ix2 p q) = max (Cert.Sage.pre v0 v3 v5 v7 v12 p q) (Ideal.ofBits .f32 0x00000000#32) := by
  have core := Cert.Sage.products_bias_apply dot_S2000x128_S128x256_S2000x256_1_0_0_1_n_n rfl rfl d_l0 d_l1 d_r0 d_r1
    (truncf .bf16 v0 bitsLt_bf16_f32 : FVec Ideal S2000x128 .bf16) (truncf .bf16 v3 bitsLt_bf16_f32 : FVec Ideal S2000x128 .bf16)
    (truncf .bf16 v5 bitsLt_bf16_f32 : FVec Ideal S128x256 .bf16) (truncf .bf16 v7 bitsLt_bf16_f32 : FVec Ideal S128x256 .bf16)
    v12 broadcasts_S1x256_S2000x256 p q
  unfold k0_pay1
  simp only [shapeCast_self]
  exact congrArg (fun z => max z (Ideal.ofBits .f32 0x00000000#32)) core

/-! ## The index maps over the grid, and each window's block read in place -/

theorem hz : (![0, 0] : Fin 2 → Nat) = fun _ => 0 := funext fun a => by fin_cases a <;> rfl

/-- The printed index maps, decided over the 25 grid points: the two feature windows and the output window sit at block row
    `t`, the weights and the bias at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `2000 t + p` of the array. -/
def row (t : Fin cfg0.N) (p : Fin 2000) : Fin 50000 :=
  ⟨t.val * 2000 + p.val, by have h := t.isLt; have hN : cfg0.N = 25 := N_0; have hp := p.isLt; omega⟩

variable (V : (c : Dev nD) → (b : Ref sig .tc) → Buf (Elt Ideal) ((c : Thread nD τ).loc b))

theorem blk0 (c : Dev nD) (t : Fin cfg0.N) (p : Fin 2000) (k : Fin 128) :
    iblk0 V c 0 t (ix2 p k) = V c main_v24 (ix2 (row t p) k) := by
  obtain ⟨e, e', -⟩ := idx_facts t
  show V c main_v24 (((cfg0.win 0).blk t).view.emb (ix2 p k)) = _
  refine congrArg (V c main_v24) (funext fun a => Fin.ext ?_)
  match a with
  | ⟨0, _⟩ => show win0_0.index t (0 : Fin 2) * 2000 + 1 * p.val = t.val * 2000 + p.val; rw [e]; omega
  | ⟨1, _⟩ => show win0_0.index t (1 : Fin 2) * 128 + 1 * k.val = k.val; rw [e']; omega

theorem blk1 (c : Dev nD) (t : Fin cfg0.N) (p : Fin 2000) (k : Fin 128) :
    iblk0 V c 1 t (ix2 p k) = V c main_arg0 (ix2 (row t p) k) := by
  obtain ⟨-, -, e, e', -⟩ := idx_facts t
  show V c main_arg0 (((cfg0.win 1).blk t).view.emb (ix2 p k)) = _
  refine congrArg (V c main_arg0) (funext fun a => Fin.ext ?_)
  match a with
  | ⟨0, _⟩ => show win0_1.index t (0 : Fin 2) * 2000 + 1 * p.val = t.val * 2000 + p.val; rw [e]; omega
  | ⟨1, _⟩ => show win0_1.index t (1 : Fin 2) * 128 + 1 * k.val = k.val; rw [e']; omega

theorem blk2 (c : Dev nD) (t : Fin cfg0.N) (k : Fin 128) (q : Fin 256) :
    iblk0 V c 2 t (ix2 k q) = V c main_arg2 (ix2 k q) := by
  obtain ⟨-, -, -, -, e, e', -⟩ := idx_facts t
  show V c main_arg2 (((cfg0.win 2).blk t).view.emb (ix2 k q)) = _
  refine congrArg (V c main_arg2) (funext fun a => Fin.ext ?_)
  match a with
  | ⟨0, _⟩ => show win0_2.index t (0 : Fin 2) * 128 + 1 * k.val = k.val; rw [e]; omega
  | ⟨1, _⟩ => show win0_2.index t (1 : Fin 2) * 256 + 1 * q.val = q.val; rw [e']; omega

theorem blk3 (c : Dev nD) (t : Fin cfg0.N) (u : Fin 1) (q : Fin 256) :
    iblk0 V c 3 t (ix2 u q) = V c main_v25 (ix2 u q) := by
  obtain ⟨-, -, -, -, -, -, e, e', -⟩ := idx_facts t
  show V c main_v25 (((cfg0.win 3).blk t).view.emb (ix2 u q)) = _
  refine congrArg (V c main_v25) (funext fun a => Fin.ext ?_)
  match a with
  | ⟨0, _⟩ => show win0_3.index t (0 : Fin 2) * 1 + 1 * u.val = u.val; rw [e]; omega
  | ⟨1, _⟩ => show win0_3.index t (1 : Fin 2) * 256 + 1 * q.val = q.val; rw [e']; omega

theorem blk4 (c : Dev nD) (t : Fin cfg0.N) (k : Fin 128) (q : Fin 256) :
    iblk0 V c 4 t (ix2 k q) = V c main_arg4 (ix2 k q) := by
  obtain ⟨-, -, -, -, -, -, -, -, e, e', -⟩ := idx_facts t
  show V c main_arg4 (((cfg0.win 4).blk t).view.emb (ix2 k q)) = _
  refine congrArg (V c main_arg4) (funext fun a => Fin.ext ?_)
  match a with
  | ⟨0, _⟩ => show win0_4.index t (0 : Fin 2) * 128 + 1 * k.val = k.val; rw [e]; omega
  | ⟨1, _⟩ => show win0_4.index t (1 : Fin 2) * 256 + 1 * q.val = q.val; rw [e']; omega

theorem emb5 (t : Fin cfg0.N) (p : Fin 2000) (q : Fin 256) :
    ((cfg0.win 5).blk t).view.emb (ix2 p q) = ix2 (row t p) q := by
  obtain ⟨-, -, -, -, -, -, -, -, -, -, e, e'⟩ := idx_facts t
  refine funext fun a => Fin.ext ?_
  match a with
  | ⟨0, _⟩ => show win0_5.index t (0 : Fin 2) * 2000 + 1 * p.val = t.val * 2000 + p.val; rw [e]; omega
  | ⟨1, _⟩ => show win0_5.index t (1 : Fin 2) * 256 + 1 * q.val = q.val; rw [e']; omega

/-! ## What a grid point writes back, the cover, and the array after the call -/

/-- What point `t` writes back is block `t` of the layer's output array. -/
theorem flushed_eq (c : Dev nD) (t : Fin cfg0.N) :
    (dat0 V c).flushed 5 t = ((cfg0.win 5).blk t).view.read (Elt Ideal)
      (G (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  refine (pay_apply (iblk0 V c 0 t) (iblk0 V c 1 t) (iblk0 V c 2 t) (iblk0 V c 4 t) (iblk0 V c 3 t) p q).trans ?_
  show _ = G (V c main_v24) (V c main_arg0) (V c main_arg2) (V c main_arg4) (V c main_v25) (((cfg0.win 5).blk t).view.emb (ix2 p q))
  rw [emb5 t p q, G_apply]
  unfold Cert.Sage.pre
  simp only [blk0 V c t p, blk1 V c t p, blk2 V c t, blk3 V c t, blk4 V c t]

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- Every row is in the block of the point `row / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, e, e'⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e, ht]; omega
  | ⟨1, _⟩ => show win0_5.index t (1 : Fin 2) * 256 ≤ (i 1).val ∧ (i 1).val < win0_5.index t (1 : Fin 2) * 256 + 256; rw [e']; omega

/-- The output array after the call is the layer's output, as one function of the arrays the call reads. -/
theorem final (c : Dev nD) : (dat0 V c).arrAt 5 cfg0.N
    = G (V c main_v24) (V c main_arg0) (V c main_arg2) (V c main_arg4) (V c main_v25) :=
  (dat0 V c).arrAt_eq_of_cover 5 _ (fun t _ => flushed_eq V c t) cover

end Cert.KernelIdeal.Layer0

end
-- ==== Proof.Region1.lean ====
/-
  What pipelined call 1 leaves in its output array, as one function of the arrays it reads.

  The call walks the node rows in 25 blocks of 2000.  At block `t` it reads rows `2000 t … 2000 t + 1999` of the aggregated
  features and of the node features, the two whole weight matrices and the bias row, and writes rows
  `2000 t … 2000 t + 1999` of the output.  Row `p` of the block it writes is the layer's row `2000 t + p`: a row of the
  output depends on the same row of the two feature arrays only, so cutting the rows into blocks changes nothing, and the
  25 blocks tile the 50000 rows.  The matrix products are taken in a narrower float format; on the extended reals a change
  of format is the identity.
-/
import proofs.«151421_j71897752535696_1_alg».proof.Proof.Gen.KernelIdeal.Frame
import proofs.«151421_j71897752535696_1_alg».proof.Proof.LibLayerEntry
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product's dimension record: which coordinate of each factor reads which index -/

theorem d_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The layer, and one block's arithmetic read at a row and a column -/

/-- The output array of the layer: entry `(r, o)` from row `r` of the aggregated features `a` and of the node features `x`. -/
def G (a x : S50000x256.Idx → EReal) (wl wr : S256x256.Idx → EReal) (b : S1x256.Idx → EReal) : S50000x256.Idx → EReal :=
  fun i => (fun (r : Fin 50000) (o : Fin 256) => max (Cert.Sage.pre a x wl wr b r o) (Ideal.ofBits .f32 0x00000000#32)) (i 0) (i 1)

theorem G_apply (a x : S50000x256.Idx → EReal) (wl wr : S256x256.Idx → EReal) (b : S1x256.Idx → EReal) (r : Fin 50000) (o : Fin 256) :
    G a x wl wr b (ix2 r o) = max (Cert.Sage.pre a x wl wr b r o) (Ideal.ofBits .f32 0x00000000#32) := rfl

/-- The value the body stores, at row `p` and column `q` of the block, from the five blocks it loaded. -/
theorem pay_apply (v0 v3 : Vec Ideal S2000x256 .f32) (v5 v7 : Vec Ideal S256x256 .f32) (v12 : Vec Ideal S1x256 .f32) (p : Fin 2000) (q : Fin 256) :
    k1_pay1 v0 v3 v5 v7 v12 (ix2 p q) = max (Cert.Sage.pre v0 v3 v5 v7 v12 p q) (Ideal.ofBits .f32 0x00000000#32) := by
  have core := Cert.Sage.products_bias_apply dot_S2000x256_S256x256_S2000x256_1_0_0_1_n_n rfl rfl d_l0 d_l1 d_r0 d_r1
    (truncf .bf16 v0 bitsLt_bf16_f32 : FVec Ideal S2000x256 .bf16) (truncf .bf16 v3 bitsLt_bf16_f32 : FVec Ideal S2000x256 .bf16)
    (truncf .bf16 v5 bitsLt_bf16_f32 : FVec Ideal S256x256 .bf16) (truncf .bf16 v7 bitsLt_bf16_f32 : FVec Ideal S256x256 .bf16)
    v12 broadcasts_S1x256_S2000x256 p q
  unfold k1_pay1
  simp only [shapeCast_self]
  exact congrArg (fun z => max z (Ideal.ofBits .f32 0x00000000#32)) core

/-! ## The index maps over the grid, and each window's block read in place -/

theorem hz : (![0, 0] : Fin 2 → Nat) = fun _ => 0 := funext fun a => by fin_cases a <;> rfl

/-- The printed index maps, decided over the 25 grid points: the two feature windows and the output window sit at block row
    `t`, the weights and the bias at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `2000 t + p` of the array. -/
def row (t : Fin cfg1.N) (p : Fin 2000) : Fin 50000 :=
  ⟨t.val * 2000 + p.val, by have h := t.isLt; have hN : cfg1.N = 25 := N_1; have hp := p.isLt; omega⟩

variable (V : (c : Dev nD) → (b : Ref sig .tc) → Buf (Elt Ideal) ((c : Thread nD τ).loc b))

theorem blk0 (c : Dev nD) (t : Fin cfg1.N) (p : Fin 2000) (k : Fin 256) :
    iblk1 V c 0 t (ix2 p k) = V c main_v38 (ix2 (row t p) k) := by
  obtain ⟨e, e', -⟩ := idx_facts t
  show V c main_v38 (((cfg1.win 0).blk t).view.emb (ix2 p k)) = _
  refine congrArg (V c main_v38) (funext fun a => Fin.ext ?_)
  match a with
  | ⟨0, _⟩ => show win1_0.index t (0 : Fin 2) * 2000 + 1 * p.val = t.val * 2000 + p.val; rw [e]; omega
  | ⟨1, _⟩ => show win1_0.index t (1 : Fin 2) * 256 + 1 * k.val = k.val; rw [e']; omega

theorem blk1 (c : Dev nD) (t : Fin cfg1.N) (p : Fin 2000) (k : Fin 256) :
    iblk1 V c 1 t (ix2 p k) = V c main_v26 (ix2 (row t p) k) := by
  obtain ⟨-, -, e, e', -⟩ := idx_facts t
  show V c main_v26 (((cfg1.win 1).blk t).view.emb (ix2 p k)) = _
  refine congrArg (V c main_v26) (funext fun a => Fin.ext ?_)
  match a with
  | ⟨0, _⟩ => show win1_1.index t (0 : Fin 2) * 2000 + 1 * p.val = t.val * 2000 + p.val; rw [e]; omega
  | ⟨1, _⟩ => show win1_1.index t (1 : Fin 2) * 256 + 1 * k.val = k.val; rw [e']; omega

theorem blk2 (c : Dev nD) (t : Fin cfg1.N) (k : Fin 256) (q : Fin 256) :
    iblk1 V c 2 t (ix2 k q) = V c main_arg5 (ix2 k q) := by
  obtain ⟨-, -, -, -, e, e', -⟩ := idx_facts t
  show V c main_arg5 (((cfg1.win 2).blk t).view.emb (ix2 k q)) = _
  refine congrArg (V c main_arg5) (funext fun a => Fin.ext ?_)
  match a with
  | ⟨0, _⟩ => show win1_2.index t (0 : Fin 2) * 256 + 1 * k.val = k.val; rw [e]; omega
  | ⟨1, _⟩ => show win1_2.index t (1 : Fin 2) * 256 + 1 * q.val = q.val; rw [e']; omega

theorem blk3 (c : Dev nD) (t : Fin cfg1.N) (u : Fin 1) (q : Fin 256) :
    iblk1 V c 3 t (ix2 u q) = V c main_v39 (ix2 u q) := by
  obtain ⟨-, -, -, -, -, -, e, e', -⟩ := idx_facts t
  show V c main_v39 (((cfg1.win 3).blk t).view.emb (ix2 u q)) = _
  refine congrArg (V c main_v39) (funext fun a => Fin.ext ?_)
  match a with
  | ⟨0, _⟩ => show win1_3.index t (0 : Fin 2) * 1 + 1 * u.val = u.val; rw [e]; omega
  | ⟨1, _⟩ => show win1_3.index t (1 : Fin 2) * 256 + 1 * q.val = q.val; rw [e']; omega

theorem blk4 (c : Dev nD) (t : Fin cfg1.N) (k : Fin 256) (q : Fin 256) :
    iblk1 V c 4 t (ix2 k q) = V c main_arg7 (ix2 k q) := by
  obtain ⟨-, -, -, -, -, -, -, -, e, e', -⟩ := idx_facts t
  show V c main_arg7 (((cfg1.win 4).blk t).view.emb (ix2 k q)) = _
  refine congrArg (V c main_arg7) (funext fun a => Fin.ext ?_)
  match a with
  | ⟨0, _⟩ => show win1_4.index t (0 : Fin 2) * 256 + 1 * k.val = k.val; rw [e]; omega
  | ⟨1, _⟩ => show win1_4.index t (1 : Fin 2) * 256 + 1 * q.val = q.val; rw [e']; omega

theorem emb5 (t : Fin cfg1.N) (p : Fin 2000) (q : Fin 256) :
    ((cfg1.win 5).blk t).view.emb (ix2 p q) = ix2 (row t p) q := by
  obtain ⟨-, -, -, -, -, -, -, -, -, -, e, e'⟩ := idx_facts t
  refine funext fun a => Fin.ext ?_
  match a with
  | ⟨0, _⟩ => show win1_5.index t (0 : Fin 2) * 2000 + 1 * p.val = t.val * 2000 + p.val; rw [e]; omega
  | ⟨1, _⟩ => show win1_5.index t (1 : Fin 2) * 256 + 1 * q.val = q.val; rw [e']; omega

/-! ## What a grid point writes back, the cover, and the array after the call -/

/-- What point `t` writes back is block `t` of the layer's output array. -/
theorem flushed_eq (c : Dev nD) (t : Fin cfg1.N) :
    (dat1 V c).flushed 5 t = ((cfg1.win 5).blk t).view.read (Elt Ideal)
      (G (V c main_v38) (V c main_v26) (V c main_arg5) (V c main_arg7) (V c main_v39)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  refine (pay_apply (iblk1 V c 0 t) (iblk1 V c 1 t) (iblk1 V c 2 t) (iblk1 V c 4 t) (iblk1 V c 3 t) p q).trans ?_
  show _ = G (V c main_v38) (V c main_v26) (V c main_arg5) (V c main_arg7) (V c main_v39) (((cfg1.win 5).blk t).view.emb (ix2 p q))
  rw [emb5 t p q, G_apply]
  unfold Cert.Sage.pre
  simp only [blk0 V c t p, blk1 V c t p, blk2 V c t, blk3 V c t, blk4 V c t]

/-- An index of the output array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v40).slice (win1_5.rect t)).set ↔ _
  rw [View.set_slice_whole, Rect.mem_set_unit]
  exact Iff.rfl

/-- Every row is in the block of the point `row / 2000`. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e, e'⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e, ht]; omega
  | ⟨1, _⟩ => show win1_5.index t (1 : Fin 2) * 256 ≤ (i 1).val ∧ (i 1).val < win1_5.index t (1 : Fin 2) * 256 + 256; rw [e']; omega

/-- The output array after the call is the layer's output, as one function of the arrays the call reads. -/
theorem final (c : Dev nD) : (dat1 V c).arrAt 5 cfg1.N
    = G (V c main_v38) (V c main_v26) (V c main_arg5) (V c main_arg7) (V c main_v39) :=
  (dat1 V c).arrAt_eq_of_cover 5 _ (fun t _ => flushed_eq V c t) cover

end Cert.KernelIdeal.Layer1

end
-- ==== Proof.Region2.lean ====
/-
  What pipelined call 2 leaves in its output array, as one function of the arrays it reads.

  The call walks the node rows in 25 blocks of 2000.  At block `t` it reads rows `2000 t … 2000 t + 1999` of the aggregated
  features and of the node features, the two whole weight matrices and the bias row, and writes rows
  `2000 t … 2000 t + 1999` of the output.  Row `p` of the block it writes is the layer's row `2000 t + p`: a row of the
  output depends on the same row of the two feature arrays only, so cutting the rows into blocks changes nothing, and the
  25 blocks tile the 50000 rows.  The matrix products are taken in a narrower float format; on the extended reals a change
  of format is the identity.
-/
import proofs.«151421_j71897752535696_1_alg».proof.Proof.Gen.KernelIdeal.Frame
import proofs.«151421_j71897752535696_1_alg».proof.Proof.LibLayerEntry
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The matrix product's dimension record: which coordinate of each factor reads which index -/

theorem d_l0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem d_l1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem d_r0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem d_r1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ## The layer, and one block's arithmetic read at a row and a column -/

/-- The output array of the layer: entry `(r, o)` from row `r` of the aggregated features `a` and of the node features `x`. -/
def G (a x : S50000x256.Idx → EReal) (wl wr : S256x128.Idx → EReal) (b : S1x128.Idx → EReal) : S50000x128.Idx → EReal :=
  fun i => (fun (r : Fin 50000) (o : Fin 128) => Cert.Sage.pre a x wl wr b r o) (i 0) (i 1)

theorem G_apply (a x : S50000x256.Idx → EReal) (wl wr : S256x128.Idx → EReal) (b : S1x128.Idx → EReal) (r : Fin 50000) (o : Fin 128) :
    G a x wl wr b (ix2 r o) = Cert.Sage.pre a x wl wr b r o := rfl

/-- The value the body stores, at row `p` and column `q` of the block, from the five blocks it loaded. -/
theorem pay_apply (v0 v3 : Vec Ideal S2000x256 .f32) (v5 v7 : Vec Ideal S256x128 .f32) (v12 : Vec Ideal S1x128 .f32) (p : Fin 2000) (q : Fin 128) :
    k2_pay1 v0 v3 v5 v7 v12 (ix2 p q) = Cert.Sage.pre v0 v3 v5 v7 v12 p q := by
  have core := Cert.Sage.products_bias_apply dot_S2000x256_S256x128_S2000x128_1_0_0_1_n_n rfl rfl d_l0 d_l1 d_r0 d_r1
    (truncf .bf16 v0 bitsLt_bf16_f32 : FVec Ideal S2000x256 .bf16) (truncf .bf16 v3 bitsLt_bf16_f32 : FVec Ideal S2000x256 .bf16)
    (truncf .bf16 v5 bitsLt_bf16_f32 : FVec Ideal S256x128 .bf16) (truncf .bf16 v7 bitsLt_bf16_f32 : FVec Ideal S256x128 .bf16)
    v12 broadcasts_S1x128_S2000x128 p q
  unfold k2_pay1
  simp only [shapeCast_self]
  exact core

/-! ## The index maps over the grid, and each window's block read in place -/

theorem hz : (![0, 0] : Fin 2 → Nat) = fun _ => 0 := funext fun a => by fin_cases a <;> rfl

/-- The printed index maps, decided over the 25 grid points: the two feature windows and the output window sit at block row
    `t`, the weights and the bias at their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of block `t` is row `2000 t + p` of the array. -/
def row (t : Fin cfg2.N) (p : Fin 2000) : Fin 50000 :=
  ⟨t.val * 2000 + p.val, by have h := t.isLt; have hN : cfg2.N = 25 := N_2; have hp := p.isLt; omega⟩

variable (V : (c : Dev nD) → (b : Ref sig .tc) → Buf (Elt Ideal) ((c : Thread nD τ).loc b))

theorem blk0 (c : Dev nD) (t : Fin cfg2.N) (p : Fin 2000) (k : Fin 256) :
    iblk2 V c 0 t (ix2 p k) = V c main_v52 (ix2 (row t p) k) := by
  obtain ⟨e, e', -⟩ := idx_facts t
  show V c main_v52 (((cfg2.win 0).blk t).view.emb (ix2 p k)) = _
  refine congrArg (V c main_v52) (funext fun a => Fin.ext ?_)
  match a with
  | ⟨0, _⟩ => show win2_0.index t (0 : Fin 2) * 2000 + 1 * p.val = t.val * 2000 + p.val; rw [e]; omega
  | ⟨1, _⟩ => show win2_0.index t (1 : Fin 2) * 256 + 1 * k.val = k.val; rw [e']; omega

theorem blk1 (c : Dev nD) (t : Fin cfg2.N) (p : Fin 2000) (k : Fin 256) :
    iblk2 V c 1 t (ix2 p k) = V c main_v40 (ix2 (row t p) k) := by
  obtain ⟨-, -, e, e', -⟩ := idx_facts t
  show V c main_v40 (((cfg2.win 1).blk t).view.emb (ix2 p k)) = _
  refine congrArg (V c main_v40) (funext fun a => Fin.ext ?_)
  match a with
  | ⟨0, _⟩ => show win2_1.index t (0 : Fin 2) * 2000 + 1 * p.val = t.val * 2000 + p.val; rw [e]; omega
  | ⟨1, _⟩ => show win2_1.index t (1 : Fin 2) * 256 + 1 * k.val = k.val; rw [e']; omega

theorem blk2 (c : Dev nD) (t : Fin cfg2.N) (k : Fin 256) (q : Fin 128) :
    iblk2 V c 2 t (ix2 k q) = V c main_arg8 (ix2 k q) := by
  obtain ⟨-, -, -, -, e, e', -⟩ := idx_facts t
  show V c main_arg8 (((cfg2.win 2).blk t).view.emb (ix2 k q)) = _
  refine congrArg (V c main_arg8) (funext fun a => Fin.ext ?_)
  match a with
  | ⟨0, _⟩ => show win2_2.index t (0 : Fin 2) * 256 + 1 * k.val = k.val; rw [e]; omega
  | ⟨1, _⟩ => show win2_2.index t (1 : Fin 2) * 128 + 1 * q.val = q.val; rw [e']; omega

theorem blk3 (c : Dev nD) (t : Fin cfg2.N) (u : Fin 1) (q : Fin 128) :
    iblk2 V c 3 t (ix2 u q) = V c main_v53 (ix2 u q) := by
  obtain ⟨-, -, -, -, -, -, e, e', -⟩ := idx_facts t
  show V c main_v53 (((cfg2.win 3).blk t).view.emb (ix2 u q)) = _
  refine congrArg (V c main_v53) (funext fun a => Fin.ext ?_)
  match a with
  | ⟨0, _⟩ => show win2_3.index t (0 : Fin 2) * 1 + 1 * u.val = u.val; rw [e]; omega
  | ⟨1, _⟩ => show win2_3.index t (1 : Fin 2) * 128 + 1 * q.val = q.val; rw [e']; omega

theorem blk4 (c : Dev nD) (t : Fin cfg2.N) (k : Fin 256) (q : Fin 128) :
    iblk2 V c 4 t (ix2 k q) = V c main_arg10 (ix2 k q) := by
  obtain ⟨-, -, -, -, -, -, -, -, e, e', -⟩ := idx_facts t
  show V c main_arg10 (((cfg2.win 4).blk t).view.emb (ix2 k q)) = _
  refine congrArg (V c main_arg10) (funext fun a => Fin.ext ?_)
  match a with
  | ⟨0, _⟩ => show win2_4.index t (0 : Fin 2) * 256 + 1 * k.val = k.val; rw [e]; omega
  | ⟨1, _⟩ => show win2_4.index t (1 : Fin 2) * 128 + 1 * q.val = q.val; rw [e']; omega

theorem emb5 (t : Fin cfg2.N) (p : Fin 2000) (q : Fin 128) :
    ((cfg2.win 5).blk t).view.emb (ix2 p q) = ix2 (row t p) q := by
  obtain ⟨-, -, -, -, -, -, -, -, -, -, e, e'⟩ := idx_facts t
  refine funext fun a => Fin.ext ?_
  match a with
  | ⟨0, _⟩ => show win2_5.index t (0 : Fin 2) * 2000 + 1 * p.val = t.val * 2000 + p.val; rw [e]; omega
  | ⟨1, _⟩ => show win2_5.index t (1 : Fin 2) * 128 + 1 * q.val = q.val; rw [e']; omega

/-! ## What a grid point writes back, the cover, and the array after the call -/

/-- What point `t` writes back is block `t` of the layer's output array. -/
theorem flushed_eq (c : Dev nD) (t : Fin cfg2.N) :
    (dat2 V c).flushed 5 t = ((cfg2.win 5).blk t).view.read (Elt Ideal)
      (G (V c main_v52) (V c main_v40) (V c main_arg8) (V c main_arg10) (V c main_v53)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  refine (pay_apply (iblk2 V c 0 t) (iblk2 V c 1 t) (iblk2 V c 2 t) (iblk2 V c 4 t) (iblk2 V c 3 t) p q).trans ?_
  show _ = G (V c main_v52) (V c main_v40) (V c main_arg8) (V c main_arg10) (V c main_v53) (((cfg2.win 5).blk t).view.emb (ix2 p q))
  rw [emb5 t p q, G_apply]
  unfold Cert.Sage.pre
  simp only [blk0 V c t p, blk1 V c t p, blk2 V c t, blk3 V c t, blk4 V c t]

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v54).slice (win2_5.rect t)).set ↔ _
  rw [View.set_slice_whole, Rect.mem_set_unit]
  exact Iff.rfl

/-- Every row is in the block of the point `row / 2000`. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, e, e'⟩ := idx_facts t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; rw [e, ht]; omega
  | ⟨1, _⟩ => show win2_5.index t (1 : Fin 2) * 128 ≤ (i 1).val ∧ (i 1).val < win2_5.index t (1 : Fin 2) * 128 + 128; rw [e']; omega

/-- The output array after the call is the layer's output, as one function of the arrays the call reads. -/
theorem final (c : Dev nD) : (dat2 V c).arrAt 5 cfg2.N
    = G (V c main_v52) (V c main_v40) (V c main_arg8) (V c main_arg10) (V c main_v53) :=
  (dat2 V c).arrAt_eq_of_cover 5 _ (fun t _ => flushed_eq V c t) cover

end Cert.KernelIdeal.Layer2

end
-- ==== Proof.KernelChain.lean ====
/-
  The idealized kernel's result array, as one function of the arguments.

  Layer by layer: the first pipelined call reads the neighbour means of the input features and the input features, and
  leaves the first hidden features; the host then forms the neighbour means of those, the second call leaves the second
  hidden features, and so on.  The in-degrees, and with them the reciprocal column, are computed once, from the edge list,
  and used by all three layers.  The result is the third layer's output, without an activation.
-/
import proofs.«151421_j71897752535696_1_alg».proof.Proof.KernelHost
import proofs.«151421_j71897752535696_1_alg».proof.Proof.Region0
import proofs.«151421_j71897752535696_1_alg».proof.Proof.Region1
import proofs.«151421_j71897752535696_1_alg».proof.Proof.Region2

set_option maxRecDepth 16384

noncomputable section

namespace Cert.KernelIdeal.Chain

open Cert.KernelIdeal Cert.KernelIdeal.Gen Cert.KernelIdeal.Glue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The first hidden features. -/
def h1 : FVec Ideal S50000x256 .f32 :=
  Cert.KernelIdeal.Layer0.G (mean128 (m ((c : Thread nD τ).loc main_arg0)) (m ((c : Thread nD τ).loc main_arg1))) (m ((c : Thread nD τ).loc main_arg0)) (m ((c : Thread nD τ).loc main_arg2)) (m ((c : Thread nD τ).loc main_arg4)) (shapeCast S1x256 (m ((c : Thread nD τ).loc main_arg3)) shapeCasts_S256_S1x256)
/-- The second hidden features. -/
def h2 : FVec Ideal S50000x256 .f32 :=
  Cert.KernelIdeal.Layer1.G (mean256 (h1 m c) (m ((c : Thread nD τ).loc main_arg1))) (h1 m c) (m ((c : Thread nD τ).loc main_arg5)) (m ((c : Thread nD τ).loc main_arg7)) (shapeCast S1x256 (m ((c : Thread nD τ).loc main_arg6)) shapeCasts_S256_S1x256)
/-- The result. -/
def out : FVec Ideal S50000x128 .f32 :=
  Cert.KernelIdeal.Layer2.G (mean256 (h2 m c) (m ((c : Thread nD τ).loc main_arg1))) (h2 m c) (m ((c : Thread nD τ).loc main_arg8)) (m ((c : Thread nD τ).loc main_arg10)) (shapeCast S1x128 (m ((c : Thread nD τ).loc main_arg9)) shapeCasts_S128_S1x128)

/-! ### After the first pipelined call -/

theorem w2_v1 : W2 m ρ c (Proc.devRef .tc main_v1) = src (m ((c : Thread nD τ).loc main_arg1)) :=
  (W2_of_ne m ρ c main_v1 (by decide)).trans (w1_v1 m ρ c)
theorem w2_v3 : W2 m ρ c (Proc.devRef .tc main_v3) = dst (m ((c : Thread nD τ).loc main_arg1)) :=
  (W2_of_ne m ρ c main_v3 (by decide)).trans (w1_v3 m ρ c)
theorem w2_v12 : W2 m ρ c (Proc.devRef .tc main_v12) = inv (m ((c : Thread nD τ).loc main_arg1)) :=
  (W2_of_ne m ρ c main_v12 (by decide)).trans (w1_v12 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)

theorem w2_v26 : W2 m ρ c (Proc.devRef .tc main_v26) = h1 m c := by
  refine (W2_arr m ρ c 5).trans ((Cert.KernelIdeal.Layer0.final (V1 m ρ) c).trans ?_)
  show Cert.KernelIdeal.Layer0.G (W1 m ρ c (Proc.devRef .tc main_v24)) (W1 m ρ c (Proc.devRef .tc main_arg0)) (W1 m ρ c (Proc.devRef .tc main_arg2))
    (W1 m ρ c (Proc.devRef .tc main_arg4)) (W1 m ρ c (Proc.devRef .tc main_v25)) = _
  rw [w1_v24, w1_arg0, w1_arg2, w1_arg4, w1_v25]
  rfl

/-! ### After the second stretch of host operations -/

theorem w3_v1 : W3 m ρ c (Proc.devRef .tc main_v1) = src (m ((c : Thread nD τ).loc main_arg1)) := by
  show StableHlo.after hostOps1 (W2 m ρ c) (Proc.devRef .tc main_v1) = _
  after_results_simp
  exact w2_v1 m ρ c
theorem w3_v3 : W3 m ρ c (Proc.devRef .tc main_v3) = dst (m ((c : Thread nD τ).loc main_arg1)) := by
  show StableHlo.after hostOps1 (W2 m ρ c) (Proc.devRef .tc main_v3) = _
  after_results_simp
  exact w2_v3 m ρ c
theorem w3_v12 : W3 m ρ c (Proc.devRef .tc main_v12) = inv (m ((c : Thread nD τ).loc main_arg1)) := by
  show StableHlo.after hostOps1 (W2 m ρ c) (Proc.devRef .tc main_v12) = _
  after_results_simp
  exact w2_v12 m ρ c
theorem w3_arg5 : W3 m ρ c (Proc.devRef .tc main_arg5) = (m ((c : Thread nD τ).loc main_arg5)) := by
  show StableHlo.after hostOps1 (W2 m ρ c) (Proc.devRef .tc main_arg5) = _
  after_results_simp
  exact w2_arg5 m ρ c
theorem w3_arg7 : W3 m ρ c (Proc.devRef .tc main_arg7) = (m ((c : Thread nD τ).loc main_arg7)) := by
  show StableHlo.after hostOps1 (W2 m ρ c) (Proc.devRef .tc main_arg7) = _
  after_results_simp
  exact w2_arg7 m ρ c
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c
theorem w3_arg10 : W3 m ρ c (Proc.devRef .tc main_arg10) = (m ((c : Thread nD τ).loc main_arg10)) := by
  show StableHlo.after hostOps1 (W2 m ρ c) (Proc.devRef .tc main_arg10) = _
  after_results_simp
  exact w2_arg10 m ρ c

theorem w3_v26 : W3 m ρ c (Proc.devRef .tc main_v26) = h1 m c := by
  show StableHlo.after hostOps1 (W2 m ρ c) (Proc.devRef .tc main_v26) = _
  after_results_simp
  exact w2_v26 m ρ c
theorem w3_v39 : W3 m ρ c (Proc.devRef .tc main_v39) = (shapeCast S1x256 (m ((c : Thread nD τ).loc main_arg6)) shapeCasts_S256_S1x256) := by
  show StableHlo.after hostOps1 (W2 m ρ c) (Proc.devRef .tc main_v39) = _
  after_results_simp
  rw [w2_arg6]
  rfl
theorem w3_v38 : W3 m ρ c (Proc.devRef .tc main_v38) = mean256 (h1 m c) (m ((c : Thread nD τ).loc main_arg1)) := by
  show StableHlo.after hostOps1 (W2 m ρ c) (Proc.devRef .tc main_v38) = _
  after_results_simp
  rw [w2_v1, w2_v3, w2_v12, w2_v26]
  rfl

/-! ### After the second pipelined call -/

theorem w4_v1 : W4 m ρ c (Proc.devRef .tc main_v1) = src (m ((c : Thread nD τ).loc main_arg1)) :=
  (W4_of_ne m ρ c main_v1 (by decide)).trans (w3_v1 m ρ c)
theorem w4_v3 : W4 m ρ c (Proc.devRef .tc main_v3) = dst (m ((c : Thread nD τ).loc main_arg1)) :=
  (W4_of_ne m ρ c main_v3 (by decide)).trans (w3_v3 m ρ c)
theorem w4_v12 : W4 m ρ c (Proc.devRef .tc main_v12) = inv (m ((c : Thread nD τ).loc main_arg1)) :=
  (W4_of_ne m ρ c main_v12 (by decide)).trans (w3_v12 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)

theorem w4_v40 : W4 m ρ c (Proc.devRef .tc main_v40) = h2 m c := by
  refine (W4_arr m ρ c 5).trans ((Cert.KernelIdeal.Layer1.final (V3 m ρ) c).trans ?_)
  show Cert.KernelIdeal.Layer1.G (W3 m ρ c (Proc.devRef .tc main_v38)) (W3 m ρ c (Proc.devRef .tc main_v26)) (W3 m ρ c (Proc.devRef .tc main_arg5))
    (W3 m ρ c (Proc.devRef .tc main_arg7)) (W3 m ρ c (Proc.devRef .tc main_v39)) = _
  rw [w3_v38, w3_v26, w3_arg5, w3_arg7, w3_v39]
  rfl

/-! ### After the third stretch of host operations -/

theorem w5_arg8 : W5 m ρ c (Proc.devRef .tc main_arg8) = (m ((c : Thread nD τ).loc main_arg8)) := by
  show StableHlo.after hostOps2 (W4 m ρ c) (Proc.devRef .tc main_arg8) = _
  after_results_simp
  exact w4_arg8 m ρ c
theorem w5_arg10 : W5 m ρ c (Proc.devRef .tc main_arg10) = (m ((c : Thread nD τ).loc main_arg10)) := by
  show StableHlo.after hostOps2 (W4 m ρ c) (Proc.devRef .tc main_arg10) = _
  after_results_simp
  exact w4_arg10 m ρ c

theorem w5_v40 : W5 m ρ c (Proc.devRef .tc main_v40) = h2 m c := by
  show StableHlo.after hostOps2 (W4 m ρ c) (Proc.devRef .tc main_v40) = _
  after_results_simp
  exact w4_v40 m ρ c
theorem w5_v53 : W5 m ρ c (Proc.devRef .tc main_v53) = (shapeCast S1x128 (m ((c : Thread nD τ).loc main_arg9)) shapeCasts_S128_S1x128) := by
  show StableHlo.after hostOps2 (W4 m ρ c) (Proc.devRef .tc main_v53) = _
  after_results_simp
  rw [w4_arg9]
  rfl
theorem w5_v52 : W5 m ρ c (Proc.devRef .tc main_v52) = mean256 (h2 m c) (m ((c : Thread nD τ).loc main_arg1)) := by
  show StableHlo.after hostOps2 (W4 m ρ c) (Proc.devRef .tc main_v52) = _
  after_results_simp
  rw [w4_v1, w4_v3, w4_v12, w4_v40]
  rfl

/-! ### After the third pipelined call: the result -/

/-- The result buffer at the last boundary holds the third layer's output. -/
theorem w6_v54 : W6 m ρ c (Proc.devRef .tc main_v54) = out m c := by
  refine (W6_arr m ρ c 5).trans ((Cert.KernelIdeal.Layer2.final (V5 m ρ) c).trans ?_)
  show Cert.KernelIdeal.Layer2.G (W5 m ρ c (Proc.devRef .tc main_v52)) (W5 m ρ c (Proc.devRef .tc main_v40)) (W5 m ρ c (Proc.devRef .tc main_arg8))
    (W5 m ρ c (Proc.devRef .tc main_arg10)) (W5 m ρ c (Proc.devRef .tc main_v53)) = _
  rw [w5_v52, w5_v40, w5_arg8, w5_arg10, w5_v53]
  rfl

end Cert.KernelIdeal.Chain

end
-- ==== Proof.RefLayers.lean ====
/-
  The reference, layer by layer, read at a row and a column.

  Each layer of the reference divides the aggregated neighbour sums by the clamped in-degree, multiplies the resulting
  means by the neighbour weights, adds the bias (a vector, broadcast over the rows), adds the product of the layer's input
  features with the root weights, and, in the first two layers, takes the maximum with zero.  Read at entry `(r, o)` this
  is the layer's entry in the order "first product, bias, second product".
-/
import proofs.«151421_j71897752535696_1_alg».proof.Proof.Gen.ReferenceIdeal.Read
import proofs.«151421_j71897752535696_1_alg».proof.Proof.LibLayerEntry
import Idealize.ShloMosaic.Lib.ValueLayout

set_option maxRecDepth 16384

noncomputable section

open scoped BigOperators

namespace Cert.ReferenceIdeal.Layers

open Cert.ReferenceIdeal Cert.ReferenceIdeal.Read Idealize.ShloMosaic Idealize.ShloMosaic.ValueIdx

theorem l1a (r : Fin 50000) (o : Fin 256) (k : Fin 128) : lidx_main_v23 (ix2 r o) k = ix2 r k :=
  funext fun a => Fin.ext (by match a with | ⟨0, _⟩ => rfl | ⟨1, _⟩ => rfl)
theorem r1a (r : Fin 50000) (o : Fin 256) (k : Fin 128) : ridx_main_v23 (ix2 r o) k = ix2 k o :=
  funext fun a => Fin.ext (by match a with | ⟨0, _⟩ => rfl | ⟨1, _⟩ => rfl)
theorem l1x (r : Fin 50000) (o : Fin 256) (k : Fin 128) : lidx_main_v27 (ix2 r o) k = ix2 r k :=
  funext fun a => Fin.ext (by match a with | ⟨0, _⟩ => rfl | ⟨1, _⟩ => rfl)
theorem r1x (r : Fin 50000) (o : Fin 256) (k : Fin 128) : ridx_main_v27 (ix2 r o) k = ix2 k o :=
  funext fun a => Fin.ext (by match a with | ⟨0, _⟩ => rfl | ⟨1, _⟩ => rfl)
theorem b1 (r : Fin 50000) (o : Fin 256) : idx_main_v24 (idx_main_v25 (ix2 r o)) = ix1 o :=
  funext fun a => Fin.ext (by match a with | ⟨0, _⟩ => rfl)

/-- Layer 1 of the reference at row `r`, column `o`: the layer's entry from the reference's aggregated mean and the layer's
    input features, the bias added before the root product. -/
theorem val_main_v29_at (x0 : _) (x1 : _) (x2 : _) (x3 : _) (x4 : _) (h : S256.ShapeCasts S1x256) (r : Fin 50000) (o : Fin 256) :
    val_main_v29 (F := Ideal) x0 x1 x2 x3 x4 (ix2 r o) = max (Cert.Sage.pre (val_main_v22 (F := Ideal) x0 x1) (x0) x2 x4 (shapeCast S1x256 x3 h) r o) (Ideal.ofBits .f32 0x00000000#32) := by
  rw [← Cert.Sage.pre_eq_bias_first, shapeCast_a_1a_apply x3 h (0 : Fin 1) o]
  rw [val_main_v29_apply, val_main_v28_apply, val_main_v26_apply, val_main_v23_apply, val_main_v27_apply, val_main_v25_apply, val_main_v24_apply, val_main_call0_v0_apply, val_main_call0_cst_apply]
  simp only [Ideal.maximumf_def, Ideal.addf_def, Ideal.ofBits_def, l1a, r1a, l1x, r1x, b1]

theorem l2a (r : Fin 50000) (o : Fin 256) (k : Fin 256) : lidx_main_v49 (ix2 r o) k = ix2 r k :=
  funext fun a => Fin.ext (by match a with | ⟨0, _⟩ => rfl | ⟨1, _⟩ => rfl)
theorem r2a (r : Fin 50000) (o : Fin 256) (k : Fin 256) : ridx_main_v49 (ix2 r o) k = ix2 k o :=
  funext fun a => Fin.ext (by match a with | ⟨0, _⟩ => rfl | ⟨1, _⟩ => rfl)
theorem l2x (r : Fin 50000) (o : Fin 256) (k : Fin 256) : lidx_main_v53 (ix2 r o) k = ix2 r k :=
  funext fun a => Fin.ext (by match a with | ⟨0, _⟩ => rfl | ⟨1, _⟩ => rfl)
theorem r2x (r : Fin 50000) (o : Fin 256) (k : Fin 256) : ridx_main_v53 (ix2 r o) k = ix2 k o :=
  funext fun a => Fin.ext (by match a with | ⟨0, _⟩ => rfl | ⟨1, _⟩ => rfl)
theorem b2 (r : Fin 50000) (o : Fin 256) : idx_main_v50 (idx_main_v51 (ix2 r o)) = ix1 o :=
  funext fun a => Fin.ext (by match a with | ⟨0, _⟩ => rfl)

/-- Layer 2 of the reference at row `r`, column `o`: the layer's entry from the reference's aggregated mean and the layer's
    input features, the bias added before the root product. -/
theorem val_main_v55_at (x0 : _) (x1 : _) (x2 : _) (x3 : _) (x4 : _) (x5 : _) (x6 : _) (x7 : _) (h : S256.ShapeCasts S1x256) (r : Fin 50000) (o : Fin 256) :
    val_main_v55 (F := Ideal) x0 x1 x2 x3 x4 x5 x6 x7 (ix2 r o) = max (Cert.Sage.pre (val_main_v48 (F := Ideal) x0 x1 x2 x3 x4) (val_main_v29 (F := Ideal) x0 x1 x2 x3 x4) x5 x7 (shapeCast S1x256 x6 h) r o) (Ideal.ofBits .f32 0x00000000#32) := by
  rw [← Cert.Sage.pre_eq_bias_first, shapeCast_a_1a_apply x6 h (0 : Fin 1) o]
  rw [val_main_v55_apply, val_main_v54_apply, val_main_v52_apply, val_main_v49_apply, val_main_v53_apply, val_main_v51_apply, val_main_v50_apply, val_main_call1_v0_apply, val_main_call1_cst_apply]
  simp only [Ideal.maximumf_def, Ideal.addf_def, Ideal.ofBits_def, l2a, r2a, l2x, r2x, b2]

theorem l3a (r : Fin 50000) (o : Fin 128) (k : Fin 256) : lidx_main_v75 (ix2 r o) k = ix2 r k :=
  funext fun a => Fin.ext (by match a with | ⟨0, _⟩ => rfl | ⟨1, _⟩ => rfl)
theorem r3a (r : Fin 50000) (o : Fin 128) (k : Fin 256) : ridx_main_v75 (ix2 r o) k = ix2 k o :=
  funext fun a => Fin.ext (by match a with | ⟨0, _⟩ => rfl | ⟨1, _⟩ => rfl)
theorem l3x (r : Fin 50000) (o : Fin 128) (k : Fin 256) : lidx_main_v79 (ix2 r o) k = ix2 r k :=
  funext fun a => Fin.ext (by match a with | ⟨0, _⟩ => rfl | ⟨1, _⟩ => rfl)
theorem r3x (r : Fin 50000) (o : Fin 128) (k : Fin 256) : ridx_main_v79 (ix2 r o) k = ix2 k o :=
  funext fun a => Fin.ext (by match a with | ⟨0, _⟩ => rfl | ⟨1, _⟩ => rfl)
theorem b3 (r : Fin 50000) (o : Fin 128) : idx_main_v76 (idx_main_v77 (ix2 r o)) = ix1 o :=
  funext fun a => Fin.ext (by match a with | ⟨0, _⟩ => rfl)

/-- Layer 3 of the reference at row `r`, column `o`: the layer's entry from the reference's aggregated mean and the layer's
    input features, the bias added before the root product. -/
theorem val_main_v80_at (x0 : _) (x1 : _) (x2 : _) (x3 : _) (x4 : _) (x5 : _) (x6 : _) (x7 : _) (x8 : _) (x9 : _) (x10 : _) (h : S128.ShapeCasts S1x128) (r : Fin 50000) (o : Fin 128) :
    val_main_v80 (F := Ideal) x0 x1 x2 x3 x4 x5 x6 x7 x8 x9 x10 (ix2 r o) = Cert.Sage.pre (val_main_v74 (F := Ideal) x0 x1 x2 x3 x4 x5 x6 x7) (val_main_v55 (F := Ideal) x0 x1 x2 x3 x4 x5 x6 x7) x8 x10 (shapeCast S1x128 x9 h) r o := by
  rw [← Cert.Sage.pre_eq_bias_first, shapeCast_a_1a_apply x9 h (0 : Fin 1) o]
  rw [val_main_v80_apply, val_main_v78_apply, val_main_v75_apply, val_main_v79_apply, val_main_v77_apply, val_main_v76_apply]
  simp only [Ideal.maximumf_def, Ideal.addf_def, Ideal.ofBits_def, l3a, r3a, l3x, r3x, b3]

end Cert.ReferenceIdeal.Layers

end
-- ==== Proof.Bridge.lean ====
/-
  The idealized kernel's layers are the reference's layers.

  Two things differ between the two programs, and neither changes a value on the extended reals.  The kernel multiplies
  the neighbour sums by the reciprocal `1 / max(degree, 1)`, the reference divides them by `max(degree, 1)`: since
  `max(c, 1)` is never zero, the quotient is the product with the inverse, and the two agree for every extended real sum and
  degree.  The kernel adds the bias after both matrix products, the reference between them: addition is commutative and
  associative.  Everything else — the gather at the source indices, the scatter-sum at the destination indices, the count
  of ones, the products summed over the feature axis, the maximum with zero — is the same operation on both sides.
-/
import proofs.«151421_j71897752535696_1_alg».proof.Proof.KernelHost
import proofs.«151421_j71897752535696_1_alg».proof.Proof.Region0
import proofs.«151421_j71897752535696_1_alg».proof.Proof.Region1
import proofs.«151421_j71897752535696_1_alg».proof.Proof.Region2
import proofs.«151421_j71897752535696_1_alg».proof.Proof.RefLayers
import proofs.«151421_j71897752535696_1_alg».proof.Proof.LibMeanRecip

set_option maxRecDepth 16384

noncomputable section

namespace Cert.Bridge

open Cert.KernelIdeal.Glue Cert.ReferenceIdeal.Read
open Idealize.ShloMosaic Idealize.ShloMosaic.ValueIdx

/-! ## Layer 1 -/

set_option maxHeartbeats 400000 in
/-- The neighbour sums the kernel's host code forms are the reference's: the same gather and the same scatter-sum. -/
theorem agg1_eq (x0 : FVec Ideal Cert.KernelIdeal.S50000x128 .f32) (x1 : IVec Cert.KernelIdeal.S2x800000 32) : agg128 (x0) x1 = val_main_v13 (F := Ideal) x0 x1 := rfl

set_option maxHeartbeats 400000 in
/-- The in-degrees are the reference's. -/
theorem cnt1_eq (x1 : IVec Cert.KernelIdeal.S2x800000 32) : cnt x1 = val_main_v17 (F := Ideal) x1 := rfl

theorem didx1 (r : Fin 50000) (k : Fin 128) : idx_main_v20 (idx_main_v21 (ix2 r k)) = ix1 r :=
  funext fun a => Fin.ext (by match a with | ⟨0, _⟩ => rfl)

/-- The kernel's means, the sums TIMES the clamped reciprocal degree, are the reference's, the sums DIVIDED by the clamped
    degree: `a · (1 / max(c, 1)) = a / max(c, 1)` on the extended reals. -/
theorem mean1_eq (x0 : FVec Ideal Cert.KernelIdeal.S50000x128 .f32) (x1 : IVec Cert.KernelIdeal.S2x800000 32) : mean128 (x0) x1 = val_main_v22 (F := Ideal) x0 x1 := by
  funext i
  obtain ⟨r, k, rfl⟩ : ∃ (r : Fin 50000) (k : Fin 128), i = ix2 r k := ⟨i 0, i 1, eq_ix2 i⟩
  rw [mean128_apply, val_main_v22_apply, val_main_v21_apply, val_main_v20_apply, val_main_v19_apply, val_main_v18_apply, val_main_cst_3_apply, agg1_eq, cnt1_eq, didx1]
  simp only [Ideal.hostDivf_def, Ideal.maximumf_def, Ideal.ofBits_def, Cert.LibMeanRecip.ofBits_one_f32]
  exact Cert.LibMeanRecip.mul_recip_clamped _ _

/-- Layer 1: what the pipelined call leaves, from the kernel's means, is the reference's layer. -/
theorem layer1_eq (x0 : FVec Ideal Cert.KernelIdeal.S50000x128 .f32) (x1 : IVec Cert.KernelIdeal.S2x800000 32) (x2 : FVec Ideal Cert.KernelIdeal.S128x256 .f32) (x3 : FVec Ideal Cert.KernelIdeal.S256 .f32) (x4 : FVec Ideal Cert.KernelIdeal.S128x256 .f32) (h : Cert.KernelIdeal.S256.ShapeCasts Cert.KernelIdeal.S1x256) :
    Cert.KernelIdeal.Layer0.G (mean128 (x0) x1) (x0) x2 x4 (shapeCast Cert.KernelIdeal.S1x256 x3 h) = val_main_v29 (F := Ideal) x0 x1 x2 x3 x4 := by
  funext i
  obtain ⟨r, o, rfl⟩ : ∃ (r : Fin 50000) (o : Fin 256), i = ix2 r o := ⟨i 0, i 1, eq_ix2 i⟩
  rw [Cert.KernelIdeal.Layer0.G_apply, Cert.ReferenceIdeal.Layers.val_main_v29_at x0 x1 x2 x3 x4 h r o, mean1_eq]

/-! ## Layer 2 -/

set_option maxHeartbeats 400000 in
/-- The neighbour sums the kernel's host code forms are the reference's: the same gather and the same scatter-sum. -/
theorem agg2_eq (x0 : FVec Ideal Cert.KernelIdeal.S50000x128 .f32) (x1 : IVec Cert.KernelIdeal.S2x800000 32) (x2 : FVec Ideal Cert.KernelIdeal.S128x256 .f32) (x3 : FVec Ideal Cert.KernelIdeal.S256 .f32) (x4 : FVec Ideal Cert.KernelIdeal.S128x256 .f32) : agg256 (val_main_v29 (F := Ideal) x0 x1 x2 x3 x4) x1 = val_main_v39 (F := Ideal) x0 x1 x2 x3 x4 := rfl

set_option maxHeartbeats 400000 in
/-- The in-degrees are the reference's. -/
theorem cnt2_eq (x1 : IVec Cert.KernelIdeal.S2x800000 32) : cnt x1 = val_main_v43 (F := Ideal) x1 := rfl

theorem didx2 (r : Fin 50000) (k : Fin 256) : idx_main_v46 (idx_main_v47 (ix2 r k)) = ix1 r :=
  funext fun a => Fin.ext (by match a with | ⟨0, _⟩ => rfl)

/-- The kernel's means, the sums TIMES the clamped reciprocal degree, are the reference's, the sums DIVIDED by the clamped
    degree: `a · (1 / max(c, 1)) = a / max(c, 1)` on the extended reals. -/
theorem mean2_eq (x0 : FVec Ideal Cert.KernelIdeal.S50000x128 .f32) (x1 : IVec Cert.KernelIdeal.S2x800000 32) (x2 : FVec Ideal Cert.KernelIdeal.S128x256 .f32) (x3 : FVec Ideal Cert.KernelIdeal.S256 .f32) (x4 : FVec Ideal Cert.KernelIdeal.S128x256 .f32) : mean256 (val_main_v29 (F := Ideal) x0 x1 x2 x3 x4) x1 = val_main_v48 (F := Ideal) x0 x1 x2 x3 x4 := by
  funext i
  obtain ⟨r, k, rfl⟩ : ∃ (r : Fin 50000) (k : Fin 256), i = ix2 r k := ⟨i 0, i 1, eq_ix2 i⟩
  rw [mean256_apply, val_main_v48_apply, val_main_v47_apply, val_main_v46_apply, val_main_v45_apply, val_main_v44_apply, val_main_cst_9_apply, agg2_eq, cnt2_eq, didx2]
  simp only [Ideal.hostDivf_def, Ideal.maximumf_def, Ideal.ofBits_def, Cert.LibMeanRecip.ofBits_one_f32]
  exact Cert.LibMeanRecip.mul_recip_clamped _ _

/-- Layer 2: what the pipelined call leaves, from the kernel's means, is the reference's layer. -/
theorem layer2_eq (x0 : FVec Ideal Cert.KernelIdeal.S50000x128 .f32) (x1 : IVec Cert.KernelIdeal.S2x800000 32) (x2 : FVec Ideal Cert.KernelIdeal.S128x256 .f32) (x3 : FVec Ideal Cert.KernelIdeal.S256 .f32) (x4 : FVec Ideal Cert.KernelIdeal.S128x256 .f32) (x5 : FVec Ideal Cert.KernelIdeal.S256x256 .f32) (x6 : FVec Ideal Cert.KernelIdeal.S256 .f32) (x7 : FVec Ideal Cert.KernelIdeal.S256x256 .f32) (h : Cert.KernelIdeal.S256.ShapeCasts Cert.KernelIdeal.S1x256) :
    Cert.KernelIdeal.Layer1.G (mean256 (val_main_v29 (F := Ideal) x0 x1 x2 x3 x4) x1) (val_main_v29 (F := Ideal) x0 x1 x2 x3 x4) x5 x7 (shapeCast Cert.KernelIdeal.S1x256 x6 h) = val_main_v55 (F := Ideal) x0 x1 x2 x3 x4 x5 x6 x7 := by
  funext i
  obtain ⟨r, o, rfl⟩ : ∃ (r : Fin 50000) (o : Fin 256), i = ix2 r o := ⟨i 0, i 1, eq_ix2 i⟩
  rw [Cert.KernelIdeal.Layer1.G_apply, Cert.ReferenceIdeal.Layers.val_main_v55_at x0 x1 x2 x3 x4 x5 x6 x7 h r o, mean2_eq]

/-! ## Layer 3 -/

set_option maxHeartbeats 400000 in
/-- The neighbour sums the kernel's host code forms are the reference's: the same gather and the same scatter-sum. -/
theorem agg3_eq (x0 : FVec Ideal Cert.KernelIdeal.S50000x128 .f32) (x1 : IVec Cert.KernelIdeal.S2x800000 32) (x2 : FVec Ideal Cert.KernelIdeal.S128x256 .f32) (x3 : FVec Ideal Cert.KernelIdeal.S256 .f32) (x4 : FVec Ideal Cert.KernelIdeal.S128x256 .f32) (x5 : FVec Ideal Cert.KernelIdeal.S256x256 .f32) (x6 : FVec Ideal Cert.KernelIdeal.S256 .f32) (x7 : FVec Ideal Cert.KernelIdeal.S256x256 .f32) : agg256 (val_main_v55 (F := Ideal) x0 x1 x2 x3 x4 x5 x6 x7) x1 = val_main_v65 (F := Ideal) x0 x1 x2 x3 x4 x5 x6 x7 := rfl

set_option maxHeartbeats 400000 in
/-- The in-degrees are the reference's. -/
theorem cnt3_eq (x1 : IVec Cert.KernelIdeal.S2x800000 32) : cnt x1 = val_main_v69 (F := Ideal) x1 := rfl

theorem didx3 (r : Fin 50000) (k : Fin 256) : idx_main_v72 (idx_main_v73 (ix2 r k)) = ix1 r :=
  funext fun a => Fin.ext (by match a with | ⟨0, _⟩ => rfl)

/-- The kernel's means, the sums TIMES the clamped reciprocal degree, are the reference's, the sums DIVIDED by the clamped
    degree: `a · (1 / max(c, 1)) = a / max(c, 1)` on the extended reals. -/
theorem mean3_eq (x0 : FVec Ideal Cert.KernelIdeal.S50000x128 .f32) (x1 : IVec Cert.KernelIdeal.S2x800000 32) (x2 : FVec Ideal Cert.KernelIdeal.S128x256 .f32) (x3 : FVec Ideal Cert.KernelIdeal.S256 .f32) (x4 : FVec Ideal Cert.KernelIdeal.S128x256 .f32) (x5 : FVec Ideal Cert.KernelIdeal.S256x256 .f32) (x6 : FVec Ideal Cert.KernelIdeal.S256 .f32) (x7 : FVec Ideal Cert.KernelIdeal.S256x256 .f32) : mean256 (val_main_v55 (F := Ideal) x0 x1 x2 x3 x4 x5 x6 x7) x1 = val_main_v74 (F := Ideal) x0 x1 x2 x3 x4 x5 x6 x7 := by
  funext i
  obtain ⟨r, k, rfl⟩ : ∃ (r : Fin 50000) (k : Fin 256), i = ix2 r k := ⟨i 0, i 1, eq_ix2 i⟩
  rw [mean256_apply, val_main_v74_apply, val_main_v73_apply, val_main_v72_apply, val_main_v71_apply, val_main_v70_apply, val_main_cst_15_apply, agg3_eq, cnt3_eq, didx3]
  simp only [Ideal.hostDivf_def, Ideal.maximumf_def, Ideal.ofBits_def, Cert.LibMeanRecip.ofBits_one_f32]
  exact Cert.LibMeanRecip.mul_recip_clamped _ _

/-- Layer 3: what the pipelined call leaves, from the kernel's means, is the reference's layer. -/
theorem layer3_eq (x0 : FVec Ideal Cert.KernelIdeal.S50000x128 .f32) (x1 : IVec Cert.KernelIdeal.S2x800000 32) (x2 : FVec Ideal Cert.KernelIdeal.S128x256 .f32) (x3 : FVec Ideal Cert.KernelIdeal.S256 .f32) (x4 : FVec Ideal Cert.KernelIdeal.S128x256 .f32) (x5 : FVec Ideal Cert.KernelIdeal.S256x256 .f32) (x6 : FVec Ideal Cert.KernelIdeal.S256 .f32) (x7 : FVec Ideal Cert.KernelIdeal.S256x256 .f32) (x8 : FVec Ideal Cert.KernelIdeal.S256x128 .f32) (x9 : FVec Ideal Cert.KernelIdeal.S128 .f32) (x10 : FVec Ideal Cert.KernelIdeal.S256x128 .f32) (h : Cert.KernelIdeal.S128.ShapeCasts Cert.KernelIdeal.S1x128) :
    Cert.KernelIdeal.Layer2.G (mean256 (val_main_v55 (F := Ideal) x0 x1 x2 x3 x4 x5 x6 x7) x1) (val_main_v55 (F := Ideal) x0 x1 x2 x3 x4 x5 x6 x7) x8 x10 (shapeCast Cert.KernelIdeal.S1x128 x9 h) = val_main_v80 (F := Ideal) x0 x1 x2 x3 x4 x5 x6 x7 x8 x9 x10 := by
  funext i
  obtain ⟨r, o, rfl⟩ : ∃ (r : Fin 50000) (o : Fin 128), i = ix2 r o := ⟨i 0, i 1, eq_ix2 i⟩
  rw [Cert.KernelIdeal.Layer2.G_apply, Cert.ReferenceIdeal.Layers.val_main_v80_at x0 x1 x2 x3 x4 x5 x6 x7 x8 x9 x10 h r o, mean3_eq]

end Cert.Bridge

end
-- ==== Proof.lean ====
/-
  A three-layer mean-aggregating graph convolution: the tiled kernel against the plain reference, on the extended reals.

  Both programs compute, three times over, `act(mean(h) · Wl + h · Wr + b)` where `mean(h)` is, row by row, the sum of the
  rows of `h` at a node's in-neighbours divided by `max(in-degree, 1)`.  The kernel forms the neighbour sums and the
  reciprocal `1 / max(in-degree, 1)` on the host, multiplies them, and hands the means to a pipelined call that walks the
  50000 node rows in 25 blocks of 2000, taking both matrix products in a narrower float format and adding the bias last;
  the reference divides the sums by the clamped degree and adds the bias between the two products.  On the extended reals
  the narrower format is the identity, a row of the output depends only on the same row of the inputs (so the blocks
  tile the output), the product with `1 / max(c, 1)` is the quotient by `max(c, 1)` whatever the sum and the degree, and the
  three terms may be added in either order.  No finiteness of the inputs is used.

  The frames of the two kernel programs are the generated ones; the reference's is its generated run with the result
  dropped.  The idealization rewrote nothing, so there is nothing to preserve.
-/
import proofs.«151421_j71897752535696_1_alg».proof.Defs
import proofs.«151421_j71897752535696_1_alg».proof.Proof.Gen.Kernel
import proofs.«151421_j71897752535696_1_alg».proof.Proof.Gen.Kernel.Frame
import proofs.«151421_j71897752535696_1_alg».proof.Proof.Gen.KernelIdeal
import proofs.«151421_j71897752535696_1_alg».proof.Proof.Gen.KernelIdeal.Frame
import proofs.«151421_j71897752535696_1_alg».proof.Proof.Gen.ReferenceIdeal
import proofs.«151421_j71897752535696_1_alg».proof.Proof.Gen.ReferenceIdeal.Run
import proofs.«151421_j71897752535696_1_alg».proof.Proof.Gen.ReferenceIdeal.Read
import proofs.«151421_j71897752535696_1_alg».proof.Proof.Gen.Pre_finite_inputs
import proofs.«151421_j71897752535696_1_alg».proof.Proof.KernelRun
import proofs.«151421_j71897752535696_1_alg».proof.Proof.KernelChain
import proofs.«151421_j71897752535696_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result array, layer by layer, is the reference's last stage of the kernel's own arguments. -/
theorem out_eq (m : (ℓ : Loc Cert.KernelIdeal.nD Cert.KernelIdeal.τ Cert.KernelIdeal.sig) → Buf (Elt Ideal) ℓ) (c : Dev Cert.KernelIdeal.nD) :
    Cert.KernelIdeal.Chain.out m c = Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
  unfold Cert.KernelIdeal.Chain.out Cert.KernelIdeal.Chain.h2 Cert.KernelIdeal.Chain.h1
  rw [Cert.Bridge.layer1_eq, Cert.Bridge.layer2_eq, Cert.Bridge.layer3_eq]

/-- From memories that agree on the arguments both programs run to the end, and the result arrays are equal entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Chain.out m c, ?_, ?_⟩
  · exact (θ_run Cert.KernelIdeal.defs _ _).mono
      (fun r h c => ⟨(h c).1.trans (Cert.KernelIdeal.Chain.w6_v54 m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v80_eq, e0, e1, e2, e3, e4, e5, e6, e7, e8, e9, e10]
    exact (out_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
